-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S32x64 : Shape := ⟨2, ![32, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_

variable [Facts]

def fn {F : FTy → Type} [FloatOps F] (main_arg0 : FVec F S65536x64 .f32) (main_arg1 : FVec F S32x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  main_v8
-- ==== Kernel.lean ====
abbrev S65536x64 : Shape := ⟨2, ![65536, 64]⟩
abbrev S32x64 : Shape := ⟨2, ![32, 64]⟩
abbrev S32768x128 : Shape := ⟨2, ![32768, 128]⟩
abbrev S1x32x1x64 : Shape := ⟨4, ![1, 32, 1, 64]⟩
abbrev S1x32x2x64 : Shape := ⟨4, ![1, 32, 2, 64]⟩
abbrev S32x128 : Shape := ⟨2, ![32, 128]⟩
abbrev S32x32768x128 : Shape := ⟨3, ![32, 32768, 128]⟩
abbrev S512x128 : Shape := ⟨2, ![512, 128]⟩
abbrev S32x512x128 : Shape := ⟨3, ![32, 512, 128]⟩
abbrev S1x512x128 : Shape := ⟨3, ![1, 512, 128]⟩
abbrev S32x1x128 : Shape := ⟨3, ![32, 1, 128]⟩
abbrev S32x65536x64 : Shape := ⟨3, ![32, 65536, 64]⟩

abbrev nBuf : Space → Nat
  | .hbm => 8
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S32x64, .f32⟩
  | .hbm, ⟨2, _⟩ => ⟨S32768x128, .f32⟩
  | .hbm, ⟨3, _⟩ => ⟨S1x32x1x64, .f32⟩
  | .hbm, ⟨4, _⟩ => ⟨S1x32x2x64, .f32⟩
  | .hbm, ⟨5, _⟩ => ⟨S32x128, .f32⟩
  | .hbm, ⟨6, _⟩ => ⟨S32x32768x128, .f32⟩
  | .hbm, ⟨7, _⟩ => ⟨S32x65536x64, .f32⟩
  | .local _ .vmem, ⟨0, _⟩ => ⟨S512x128, .f32⟩
  | .local _ .vmem, ⟨1, _⟩ => ⟨S512x128, .f32⟩
  | .local _ .vmem, ⟨2, _⟩ => ⟨S32x128, .f32⟩
  | .local _ .vmem, ⟨3, _⟩ => ⟨S32x512x128, .f32⟩
  | .local _ .vmem, ⟨4, _⟩ => ⟨S32x512x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S65536x64_S32768x128 : S65536x64.ShapeCasts S32768x128
  shapeCasts_S32x64_S1x32x1x64 : S32x64.ShapeCasts S1x32x1x64
  bcast_S1x32x1x64_S1x32x2x64_0_1_2_3 : S1x32x1x64.BroadcastsInDim S1x32x2x64 (![0, 1, 2, 3] : Fin 4 → Fin S1x32x2x64.rank)
  shapeCasts_S1x32x2x64_S32x128 : S1x32x2x64.ShapeCasts S32x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S32x128_S32x128_0_0 : ∀ a, (![0, 0] : Fin 2 → Nat) a + S32x128.size a ≤ S32x128.size a
  h_S32x128 : 0 < S32x128.numel
  shapeCasts_S512x128_S1x512x128 : S512x128.ShapeCasts S1x512x128
  shapeCasts_S32x128_S32x1x128 : S32x128.ShapeCasts S32x1x128
  broadcasts_S1x512x128_S32x512x128 : S1x512x128.Broadcasts S32x512x128
  broadcasts_S32x1x128_S32x512x128 : S32x1x128.Broadcasts S32x512x128
  inb_S32x512x128_S32x512x128_0_0_0 : ∀ a, (![0, 0, 0] : Fin 3 → Nat) a + S32x512x128.size a ≤ S32x512x128.size a
  h_S32x512x128 : 0 < S32x512x128.numel
  shapeCasts_S32x32768x128_S32x65536x64 : S32x32768x128.ShapeCasts S32x65536x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512x128.size a ≤ S32x32768x128.size a
  hwx0_2 : ∀ i : grid0.Coords, EltTy.bits .f32 = 32 ∨ (Rect.block (s := S32x32768x128) S32x512x128.size (cc0_transform_2 i) (hinb0_2 i)).WholeWords (EltTy.packing .f32)

variable [Facts₀]

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S32x64 : Shape := ⟨2, ![32, 64]⟩
abbrev S1x65536x64 : Shape := ⟨3, ![1, 65536, 64]⟩
abbrev S32x1x64 : Shape := ⟨3, ![32, 1, 64]⟩
abbrev S32x65536x64 : Shape := ⟨3, ![32, 65536, 64]⟩

abbrev nBuf : Space → Nat
  | .hbm => 7
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S32x64, .f32⟩
  | .hbm, ⟨2, _⟩ => ⟨S1x65536x64, .f32⟩
  | .hbm, ⟨3, _⟩ => ⟨S32x1x64, .f32⟩
  | .hbm, ⟨4, _⟩ => ⟨S32x65536x64, .f32⟩
  | .hbm, ⟨5, _⟩ => ⟨S32x65536x64, .f32⟩
  | .hbm, ⟨6, _⟩ => ⟨S32x65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S65536x64_S1x65536x64_1_2 : S65536x64.BroadcastsInDim S1x65536x64 (![1, 2] : Fin 2 → Fin S1x65536x64.rank)
  bcast_S32x64_S32x1x64_0_2 : S32x64.BroadcastsInDim S32x1x64 (![0, 2] : Fin 2 → Fin S32x1x64.rank)
  bcast_S1x65536x64_S32x65536x64_0_1_2 : S1x65536x64.BroadcastsInDim S32x65536x64 (![0, 1, 2] : Fin 3 → Fin S32x65536x64.rank)
  bcast_S32x1x64_S32x65536x64_0_1_2 : S32x1x64.BroadcastsInDim S32x65536x64 (![0, 1, 2] : Fin 3 → Fin S32x65536x64.rank)

variable [Facts₀]

class Facts : Prop extends Facts₀ where

variable [Facts]
-- ==== Proof.Layout.lean ====
/-
  The pairwise difference of points and centroids, and the three re-layouts the kernel's program wraps around it.

  The specification: for points `x : [65536, 64]` and centroids `c : [32, 64]` the result `[32, 65536, 64]` holds at
  `(k, n, d)` the difference `x (n, d) - c (k, d)`.

  The kernel's program does not subtract in that layout. It folds every two consecutive rows of `x` into one row of width
  128 (a row-major re-reading `[65536, 64] → [32768, 128]`), lays each centroid twice side by side (`[32, 64] → [32, 128]`,
  through `[1, 32, 1, 64] → [1, 32, 2, 64]`), subtracts in the folded layout `[32, 32768, 128]`, and re-reads the result
  row-major as `[32, 65536, 64]`. A re-reading keeps an element's row-major position, so each of the three is read at an
  index by one equation between positions:

    folded row `r`, lane `l`      is  point `2 r + l / 64`, feature `l % 64`      (`r · 128 + l = (2 r + l / 64) · 64 + l % 64`);
    tiled centroid `k`, lane `l`  is  centroid `k`, feature `l % 64`;
    result `(k, n, d)`            is  folded `(k, n / 2, (n % 2) · 64 + d)`.

  Composing them, lane `(n % 2) · 64 + d` of folded row `n / 2` is feature `d` of point `n`, and the same lane of the tiled
  centroid is feature `d` of the centroid: the folded subtraction, unfolded, is the specification (`unfold_folded_diff`).
  Nothing here is arithmetic on values: the subtraction is the same operation on both sides, applied to the same two
  operands, so no property of the numbers (not even finiteness) is used.
-/
import Idealize.ShloMosaic.Lib.ValueIdx
import Idealize.ShloMosaic.Lib.Pipeline.Value

noncomputable section

namespace Cert.PairDiff

open Idealize.ShloMosaic Idealize.ShloMosaic.ValueIdx

/-! ## The shapes -/

/-- The points: 65536 rows of 64 features. -/
abbrev Pts : Shape := ⟨2, ![65536, 64]⟩
/-- The centroids: 32 rows of 64 features. -/
abbrev Ctr : Shape := ⟨2, ![32, 64]⟩
/-- The result: for each centroid, for each point, 64 differences. -/
abbrev Res : Shape := ⟨3, ![32, 65536, 64]⟩
/-- The points with every two consecutive rows folded into one row of 128 lanes. -/
abbrev PtsF : Shape := ⟨2, ![32768, 128]⟩
/-- The centroids, each laid twice side by side. -/
abbrev CtrT : Shape := ⟨2, ![32, 128]⟩
/-- The result in the folded layout. -/
abbrev ResF : Shape := ⟨3, ![32, 32768, 128]⟩
/-- The centroids with two unit axes, before … -/
abbrev Ctr4 : Shape := ⟨4, ![1, 32, 1, 64]⟩
/-- … and after the second of them is doubled. -/
abbrev CtrT4 : Shape := ⟨4, ![1, 32, 2, 64]⟩

section Layouts

variable {α : Type}

/-- The folded points at row `r`, lane `l` hold feature `d` of point `n` whenever the two row-major positions agree:
    the rows `2 r` and `2 r + 1` lie side by side in folded row `r`. -/
theorem fold_apply (x : Pts.Idx → α) (h : Pts.ShapeCasts PtsF) (r : Fin 32768) (l : Fin 128) (n : Fin 65536) (d : Fin 64)
    (hpos : n.val * 64 + d.val = r.val * 128 + l.val) :
    shapeCast PtsF x h (ix2 r l) = x (ix2 n d) := by
  refine shapeCast_apply x h _ _ ?_
  rw [Shape.rowMajor_val_two, Shape.rowMajor_val_two]
  exact hpos

/-- The tiled centroids at row `k`, lane `l` hold feature `l % 64` of centroid `k`: the centroid is laid twice side by
    side. -/
theorem tile_apply (c : Ctr.Idx → α) (h1 : Ctr.ShapeCasts Ctr4)
    (hb : Ctr4.BroadcastsInDim CtrT4 (![0, 1, 2, 3] : Fin 4 → Fin CtrT4.rank)) (h2 : CtrT4.ShapeCasts CtrT)
    (k : Fin 32) (l : Fin 128) (d : Fin 64) (hd : d.val = l.val % 64) :
    shapeCast CtrT (broadcastInDim CtrT4 (![0, 1, 2, 3] : Fin 4 → Fin CtrT4.rank) hb (shapeCast Ctr4 c h1)) h2 (ix2 k l)
      = c (ix2 k d) := by
  -- lane `l` of row `k` is copy `l / 64`, feature `l % 64`, of centroid `k`
  refine (shapeCast_apply _ h2 (ix2 k l) (ix4 (0 : Fin 1) k (⟨l.val / 64, by omega⟩ : Fin 2) d) ?_).trans ?_
  · rw [Shape.rowMajor_val_four, Shape.rowMajor_val_two]
    show ((0 * 32 + k.val) * 2 + l.val / 64) * 64 + d.val = k.val * 128 + l.val
    omega
  -- every copy is the one row
  refine (broadcastInDim_apply _ hb _ _ (ix4 (0 : Fin 1) k (0 : Fin 1) d)
    (fun a => match a with
      | ⟨0, _⟩ => by show (0 : Nat) = if (1 : Nat) = 1 then 0 else _; rw [if_pos rfl]
      | ⟨1, _⟩ => by show k.val = if (32 : Nat) = 1 then 0 else k.val; rw [if_neg (by decide)]
      | ⟨2, _⟩ => by show (0 : Nat) = if (1 : Nat) = 1 then 0 else _; rw [if_pos rfl]
      | ⟨3, _⟩ => by show d.val = if (64 : Nat) = 1 then 0 else d.val; rw [if_neg (by decide)])).trans ?_
  -- and the unit axes do not move a position
  refine shapeCast_apply c h1 _ _ ?_
  rw [Shape.rowMajor_val_two, Shape.rowMajor_val_four]
  show k.val * 64 + d.val = ((0 * 32 + k.val) * 1 + 0) * 64 + d.val
  omega

/-- The unfolded result at `(k, n, d)` is the folded one at `(k, r, l)` whenever the two row-major positions within the
    centroid's slab agree: point `n` lies in folded row `n / 2`, in its left or right half as `n` is even or odd. -/
theorem unfold_apply (g : ResF.Idx → α) (h : ResF.ShapeCasts Res) (k : Fin 32) (n : Fin 65536) (d : Fin 64)
    (r : Fin 32768) (l : Fin 128) (hpos : r.val * 128 + l.val = n.val * 64 + d.val) :
    shapeCast Res g h (ix3 k n d) = g (ix3 k r l) := by
  refine shapeCast_apply g h _ _ ?_
  rw [Shape.rowMajor_val_three, Shape.rowMajor_val_three]
  show (k.val * 32768 + r.val) * 128 + l.val = (k.val * 65536 + n.val) * 64 + d.val
  omega

end Layouts

/-! ## The specification, and the folded computation unfolded -/

variable {F : FTy → Type} [FloatOps F]

/-- Every point minus every centroid: at `(k, n, d)` the difference `x (n, d) - c (k, d)`. -/
def diff (x : Pts.Idx → F .f32) (c : Ctr.Idx → F .f32) : Res.Idx → F .f32 :=
  fun i => FloatOps.subf (x (ix2 (n0 := 65536) (n1 := 64) (i 1) (i 2))) (c (ix2 (n0 := 32) (n1 := 64) (i 0) (i 2)))

/-- The same subtraction in the folded layout, of folded points `xf` and tiled centroids `ct`: at `(k, r, l)` the
    difference `xf (r, l) - ct (k, l)`. -/
def diffF (xf : PtsF.Idx → F .f32) (ct : CtrT.Idx → F .f32) : ResF.Idx → F .f32 :=
  fun i => FloatOps.subf (xf (ix2 (n0 := 32768) (n1 := 128) (i 1) (i 2))) (ct (ix2 (n0 := 32) (n1 := 128) (i 0) (i 2)))

/-- Folding the points, tiling the centroids, subtracting in the folded layout and unfolding the result is the
    specification: lane `(n % 2) · 64 + d` of folded row `n / 2` is feature `d` of point `n`, and the same lane of a tiled
    centroid is its feature `d`. -/
theorem unfold_folded_diff (x : Pts.Idx → F .f32) (c : Ctr.Idx → F .f32) (hx : Pts.ShapeCasts PtsF) (h1 : Ctr.ShapeCasts Ctr4)
    (hb : Ctr4.BroadcastsInDim CtrT4 (![0, 1, 2, 3] : Fin 4 → Fin CtrT4.rank)) (h2 : CtrT4.ShapeCasts CtrT)
    (hr : ResF.ShapeCasts Res) :
    shapeCast Res (diffF (shapeCast PtsF x hx)
        (shapeCast CtrT (broadcastInDim CtrT4 (![0, 1, 2, 3] : Fin 4 → Fin CtrT4.rank) hb (shapeCast Ctr4 c h1)) h2)) hr
      = diff x c := by
  funext i
  obtain ⟨k, n, d, rfl⟩ : ∃ (k : Fin 32) (n : Fin 65536) (d : Fin 64), i = ix3 k n d := ⟨i 0, i 1, i 2, eq_ix3 i⟩
  have hr' : n.val / 2 < 32768 := by omega
  have hl' : n.val % 2 * 64 + d.val < 128 := by omega
  rw [unfold_apply _ hr k n d ⟨n.val / 2, hr'⟩ ⟨n.val % 2 * 64 + d.val, hl'⟩ (by show n.val / 2 * 128 + (n.val % 2 * 64 + d.val) = _; omega)]
  show FloatOps.subf (shapeCast PtsF x hx (ix2 (⟨n.val / 2, hr'⟩ : Fin 32768) (⟨n.val % 2 * 64 + d.val, hl'⟩ : Fin 128)))
      (shapeCast CtrT _ h2 (ix2 k (⟨n.val % 2 * 64 + d.val, hl'⟩ : Fin 128)))
    = FloatOps.subf (x (ix2 n d)) (c (ix2 k d))
  rw [fold_apply x hx _ _ n d (by show _ = n.val / 2 * 128 + (n.val % 2 * 64 + d.val); omega),
    tile_apply c h1 hb h2 k _ d (by show d.val = (n.val % 2 * 64 + d.val) % 64; omega)]

end Cert.PairDiff

end
-- ==== Proof.Reference.lean ====
/-
  The reference computes the pairwise difference.

  The reference gives the points a leading unit axis and repeats them for every centroid, gives the centroids a middle
  unit axis and repeats them for every point, and subtracts: at `(k, n, d)` the first operand reads `x (n, d)` and the
  second `c (k, d)`, whatever the repeated coordinate is. That is the specification `diff`, index by index.
-/
import proofs.«126491_j80401787781311_2_alg».proof.Proof.Gen.ReferenceIdeal.Read
import proofs.«126491_j80401787781311_2_alg».proof.Proof.Layout

noncomputable section

namespace Cert.PairDiff.Reference

open Idealize.ShloMosaic Idealize.ShloMosaic.ValueIdx
open Cert.ReferenceIdeal Cert.ReferenceIdeal.Read

variable {F : FTy → Type} [FloatOps F]

/-- The reference's result, as a function of its two arguments, is the pairwise difference. -/
theorem reference_eq (x : (⟨S65536x64, .f32⟩ : BufTy).Contents (Elt F)) (c : (⟨S32x64, .f32⟩ : BufTy).Contents (Elt F)) :
    val_main_v4 (F := F) x c = Cert.PairDiff.diff x c := by
  funext i
  -- the repeated points read `(n, d)`, the repeated centroids `(k, d)`
  have e0 : idx_main_v0 (idx_main_v2 i) = ix2 (n0 := 65536) (n1 := 64) (i 1) (i 2) :=
    funext fun a => Fin.ext (by match a with | ⟨0, _⟩ => rfl | ⟨1, _⟩ => rfl)
  have e1 : idx_main_v1 (idx_main_v3 i) = ix2 (n0 := 32) (n1 := 64) (i 0) (i 2) :=
    funext fun a => Fin.ext (by match a with | ⟨0, _⟩ => rfl | ⟨1, _⟩ => rfl)
  rw [val_main_v4_apply, val_main_v2_apply, val_main_v3_apply, val_main_v0_apply, val_main_v1_apply, e0, e1]
  rfl

end Cert.PairDiff.Reference

end
-- ==== Proof.Entry.lean ====
/-
  The two arrays the kernel is launched on, as functions of the program's arguments.

  Before the launch the program re-reads the points `[65536, 64]` row-major as `[32768, 128]` (two consecutive rows folded
  into one), and lays each centroid twice side by side: `[32, 64]` re-read as `[1, 32, 1, 64]`, its second unit axis
  doubled, and the result re-read as `[32, 128]`. These are the contents the kernel's first and second operand hold when
  its grid starts.
-/
import proofs.«126491_j80401787781311_2_alg».proof.Proof.Gen.KernelIdeal.Frame
import Idealize.ShloMosaic.Lib.StableHlo.Run

noncomputable section

namespace Cert.PairDiff.Entry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The kernel's first operand holds the points with every two consecutive rows folded into one. -/
theorem folded_points (c : Dev nD) :
    (V m c main_v0 : S32768x128.Idx → Elt F .f32)
      = shapeCast S32768x128 (m ((c : Thread nD τ).loc main_arg0)) shapeCasts_S65536x64_S32768x128 := by
  show StableHlo.after hostOps0 (fun b => m (c, b)) (Proc.devRef .tc main_v0) = _
  after_results
  rfl

/-- The kernel's second operand holds the centroids, each laid twice side by side. -/
theorem tiled_centroids (c : Dev nD) :
    (V m c main_v3 : S32x128.Idx → Elt F .f32)
      = shapeCast S32x128 (broadcastInDim S1x32x2x64 (![0, 1, 2, 3] : Fin 4 → Fin S1x32x2x64.rank) bcast_S1x32x1x64_S1x32x2x64_0_1_2_3
          (shapeCast S1x32x1x64 (m ((c : Thread nD τ).loc main_arg1)) shapeCasts_S32x64_S1x32x1x64))
          shapeCasts_S1x32x2x64_S32x128 := by
  show StableHlo.after hostOps0 (fun b => m (c, b)) (Proc.devRef .tc main_v3) = _
  after_results
  rfl

end Cert.PairDiff.Entry

end
-- ==== Proof.Body.lean ====
/-
  What the kernel's body stores, read at an index.

  The body loads a block `x0 : [512, 128]` of folded points and the whole tiled centroids `x1 : [32, 128]`, gives the first
  a leading unit axis (`[1, 512, 128]`) and the second a middle one (`[32, 1, 128]`), broadcasts both to `[32, 512, 128]` and
  subtracts. A broadcast along a unit axis reads the one entry there, and adding a unit axis moves no position, so at
  `(k, r, l)` the stored value is `x0 (r, l) - x1 (k, l)`.
-/
import proofs.«126491_j80401787781311_2_alg».proof.Proof.Gen.KernelIdeal.Skeleton
import Idealize.ShloMosaic.Lib.ValueIdx
import Idealize.ShloMosaic.Lib.Pipeline.Value

noncomputable section

namespace Cert.PairDiff.Body

open Idealize.ShloMosaic Idealize.ShloMosaic.ValueIdx Cert.KernelIdeal Cert.KernelIdeal.Gen

variable {F : FTy → Type} [FloatOps F]

/-- The stored value at centroid `k`, block row `r`, lane `l`: the block's entry `(r, l)` minus the tiled centroids'
    entry `(k, l)`. -/
theorem stored_apply (x0 : Vec F S512x128 .f32) (x1 : Vec F S32x128 .f32) (k : Fin 32) (r : Fin 512) (l : Fin 128) :
    k0_pay1 x0 x1 (ix3 k r l) = FloatOps.subf (x0 (ix2 r l)) (x1 (ix2 k l)) := by
  unfold k0_pay1
  show FloatOps.subf
      (broadcastTo S32x512x128 (shapeCast S1x512x128 (shapeCast S512x128 x0 shapeCasts_S512x128_S512x128)
        shapeCasts_S512x128_S1x512x128) broadcasts_S1x512x128_S32x512x128 (ix3 k r l))
      (broadcastTo S32x512x128 (shapeCast S32x1x128 x1 shapeCasts_S32x128_S32x1x128) broadcasts_S32x1x128_S32x512x128 (ix3 k r l))
    = _
  -- the points' block: every centroid reads the one slab, whose entry `(0, r, l)` is the block's `(r, l)`
  have ha : broadcastTo S32x512x128 (shapeCast S1x512x128 (shapeCast S512x128 x0 shapeCasts_S512x128_S512x128)
        shapeCasts_S512x128_S1x512x128) broadcasts_S1x512x128_S32x512x128 (ix3 k r l) = x0 (ix2 r l) := by
    refine (broadcastTo_apply _ broadcasts_S1x512x128_S32x512x128 (ix3 k r l) (ix3 (0 : Fin 1) r l)
      (fun a => match a with
        | ⟨0, _⟩ => by show (0 : Nat) = if (1 : Nat) = 1 then 0 else _; rw [if_pos rfl]
        | ⟨1, _⟩ => by show r.val = if (512 : Nat) = 1 then 0 else r.val; rw [if_neg (by decide)]
        | ⟨2, _⟩ => by show l.val = if (128 : Nat) = 1 then 0 else l.val; rw [if_neg (by decide)])).trans ?_
    refine (shapeCast_apply _ shapeCasts_S512x128_S1x512x128 (ix3 (0 : Fin 1) r l) (ix2 r l) ?_).trans ?_
    · rw [Shape.rowMajor_val_two, Shape.rowMajor_val_three]
      show r.val * 128 + l.val = (0 * 512 + r.val) * 128 + l.val
      omega
    rw [shapeCast_self]
  -- the centroids: every block row reads the one row, whose entry `(k, 0, l)` is the centroids' `(k, l)`
  have hb : broadcastTo S32x512x128 (shapeCast S32x1x128 x1 shapeCasts_S32x128_S32x1x128) broadcasts_S32x1x128_S32x512x128
        (ix3 k r l) = x1 (ix2 k l) := by
    refine (broadcastTo_apply _ broadcasts_S32x1x128_S32x512x128 (ix3 k r l) (ix3 k (0 : Fin 1) l)
      (fun a => match a with
        | ⟨0, _⟩ => by show k.val = if (32 : Nat) = 1 then 0 else k.val; rw [if_neg (by decide)]
        | ⟨1, _⟩ => by show (0 : Nat) = if (1 : Nat) = 1 then 0 else _; rw [if_pos rfl]
        | ⟨2, _⟩ => by show l.val = if (128 : Nat) = 1 then 0 else l.val; rw [if_neg (by decide)])).trans ?_
    refine shapeCast_apply _ shapeCasts_S32x128_S32x1x128 (ix3 k (0 : Fin 1) l) (ix2 k l) ?_
    rw [Shape.rowMajor_val_two, Shape.rowMajor_val_three]
    show k.val * 128 + l.val = (k.val * 1 + 0) * 128 + l.val
    omega
  rw [ha, hb]

/-- The same at any index of the block, by its coordinates. -/
theorem stored_at (x0 : Vec F S512x128 .f32) (x1 : Vec F S32x128 .f32) (j : S32x512x128.Idx) :
    k0_pay1 x0 x1 j
      = FloatOps.subf (x0 (ix2 (n0 := 512) (n1 := 128) (j 1) (j 2))) (x1 (ix2 (n0 := 32) (n1 := 128) (j 0) (j 2))) :=
  (congrArg (k0_pay1 x0 x1) (eq_ix3 j)).trans (stored_apply x0 x1 (j 0) (j 1) (j 2))

end Cert.PairDiff.Body

end
-- ==== Proof.Region.lean ====
/-
  The array the kernel leaves behind: the folded difference of the two arrays it is launched on.

  The grid has 64 points. At point `t` the kernel sees rows `512 t … 512 t + 511` of the folded points (all 128 lanes),
  the whole of the tiled centroids, and writes rows `512 t … 512 t + 511` of every centroid's slab of the output
  `[32, 32768, 128]`. What it writes at `(k, r, l)` of its block is the points' block at `(r, l)` minus the tiled centroids
  at `(k, l)` (`Body.stored_at`); since the points' block and the output's block start at the same row, that is the entry
  `(k, 512 t + r, l)` of ONE function of the whole arrays — the folded difference `diffF`. The 64 blocks tile the output
  (row `R` lies in block `R / 512`), so after the run the output array is that function.
-/
import proofs.«126491_j80401787781311_2_alg».proof.Proof.Gen.KernelIdeal.Frame
import proofs.«126491_j80401787781311_2_alg».proof.Proof.Layout
import proofs.«126491_j80401787781311_2_alg».proof.Proof.Body
import Idealize.ShloMosaic.Lib.Pipeline.Value

noncomputable section

namespace Cert.PairDiff.Region

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

theorem off2 : (![0, 0] : Fin 2 → Nat) = fun _ => 0 := funext fun a => by fin_cases a <;> rfl
theorem off3 : (![0, 0, 0] : Fin 3 → Nat) = fun _ => 0 := funext fun a => by fin_cases a <;> rfl

/-- Where each operand's block sits at grid point `t`, in blocks: the points' at row-block `t`, the centroids' at the
    origin, the output's at row-block `t` of every slab. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- What point `t` writes back is block `t` of the folded difference of the arrays the kernel is launched on. -/
theorem flushed_eq (c : Dev nD) (t : Fin cfg0.N) :
    (dats m 0 c).flushed 2 t
      = ((cfg0.win 2).blk t).view.read (Elt F) (Cert.PairDiff.diffF (V m c main_v0) (V m c main_v3)) := by
  show (cfg0.win 2).cut (grid0.coords t) ((dats m 0 c).after 2 t) = _
  rw [after0_2]
  unfold out0_2
  rw [View.canon_unit_zero off3]
  simp only [View.ld_unit_zero (S := S512x128) off2, View.ld_unit_zero (S := S32x128) off2]
  obtain ⟨p0, p1, p2, p3, p4, p5, p6⟩ := block_places t
  funext j
  show k0_pay1 (iblk m c 0 t) (iblk m c 1 t) j
    = Cert.PairDiff.diffF (V m c main_v0) (V m c main_v3) (((cfg0.win 2).blk t).view.emb j)
  refine (Cert.PairDiff.Body.stored_at (iblk m c 0 t) (iblk m c 1 t) j).trans ?_
  show FloatOps.subf
      (V m c main_v0 (((cfg0.win 0).blk t).view.emb (ix2 (n0 := 512) (n1 := 128) (j 1) (j 2))))
      (V m c main_v3 (((cfg0.win 1).blk t).view.emb (ix2 (n0 := 32) (n1 := 128) (j 0) (j 2))))
    = FloatOps.subf
      (V m c main_v0 (ix2 (n0 := 32768) (n1 := 128) ((((cfg0.win 2).blk t).view.emb j) 1) ((((cfg0.win 2).blk t).view.emb j) 2)))
      (V m c main_v3 (ix2 (n0 := 32) (n1 := 128) ((((cfg0.win 2).blk t).view.emb j) 0) ((((cfg0.win 2).blk t).view.emb j) 2)))
  -- the points' block starts at the output block's row, and both span all lanes
  have h0 : ((cfg0.win 0).blk t).view.emb (ix2 (n0 := 512) (n1 := 128) (j 1) (j 2))
      = ix2 (n0 := 32768) (n1 := 128) ((((cfg0.win 2).blk t).view.emb j) 1) ((((cfg0.win 2).blk t).view.emb j) 2) := by
    funext a; apply Fin.ext
    match a with
    | ⟨0, _⟩ => show win0_0.index t (0 : Fin 2) * 512 + 1 * (j 1).val = win0_2.index t (1 : Fin 3) * 512 + 1 * (j 1).val; omega
    | ⟨1, _⟩ => show win0_0.index t (1 : Fin 2) * 128 + 1 * (j 2).val = win0_2.index t (2 : Fin 3) * 128 + 1 * (j 2).val; omega
  -- the centroids' block is the whole array, as is the output block along the centroids and the lanes
  have h1 : ((cfg0.win 1).blk t).view.emb (ix2 (n0 := 32) (n1 := 128) (j 0) (j 2))
      = ix2 (n0 := 32) (n1 := 128) ((((cfg0.win 2).blk t).view.emb j) 0) ((((cfg0.win 2).blk t).view.emb j) 2) := by
    funext a; apply Fin.ext
    match a with
    | ⟨0, _⟩ => show win0_1.index t (0 : Fin 2) * 32 + 1 * (j 0).val = win0_2.index t (0 : Fin 3) * 32 + 1 * (j 0).val; omega
    | ⟨1, _⟩ => show win0_1.index t (1 : Fin 2) * 128 + 1 * (j 2).val = win0_2.index t (2 : Fin 3) * 128 + 1 * (j 2).val; omega
  rw [h0, h1]

/-- An index of the output lies in point `t`'s block iff each coordinate lies in the block's range on its axis. -/
theorem mem_block (t : Fin cfg0.N) (i : S32x32768x128.Idx) :
    i ∈ ((cfg0.win 2).blk t).view.set
      ↔ ∀ a : Fin 3, win0_2.index t a * S32x512x128.size a ≤ (i a).val
          ∧ (i a).val < win0_2.index t a * S32x512x128.size a + S32x512x128.size a := by
  show i ∈ ((View.whole main_v4).slice (win0_2.rect t)).set ↔ _
  rw [View.set_slice_whole, Rect.mem_set_unit]
  exact Iff.rfl

/-- Every index of the output is written: row `R` of any slab lies in the block of point `R / 512`. -/
theorem covered (i : S32x32768x128.Idx) :
    ∃ t : Fin cfg0.N, (cfg0.win 2).flush t = true ∧ i ∈ ((cfg0.win 2).blk t).view.set := by
  have h0 : (i 0).val < 32 := (i 0).isLt
  have h1 : (i 1).val < 32768 := (i 1).isLt
  have h2 : (i 2).val < 128 := (i 2).isLt
  obtain ⟨t, ht⟩ : ∃ t : Fin cfg0.N, t.val = (i 1).val / 512 :=
    ⟨⟨(i 1).val / 512, Nat.lt_of_lt_of_eq (by omega : (i 1).val / 512 < 64) N_0.symm⟩, rfl⟩
  obtain ⟨-, -, -, -, p4, p5, p6⟩ := block_places t
  refine ⟨t, flush0_2 t, ?_⟩
  rw [mem_block]
  intro a
  match a with
  | ⟨0, _⟩ =>
    show win0_2.index t (0 : Fin 3) * 32 ≤ (i 0).val ∧ (i 0).val < win0_2.index t (0 : Fin 3) * 32 + 32
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 128 ≤ (i 2).val ∧ (i 2).val < win0_2.index t (2 : Fin 3) * 128 + 128
    omega

/-- The output array after the run: the folded difference of the arrays the kernel is launched on. -/
theorem final (c : Dev nD) :
    (dats m 0 c).arrAt 2 cfg0.N = Cert.PairDiff.diffF (V m c main_v0) (V m c main_v3) :=
  (dats m 0 c).arrAt_eq_of_cover 2 _ (fun t _ => flushed_eq m c t) covered

end Cert.PairDiff.Region

end
-- ==== Proof.Result.lean ====
/-
  The kernel's program, run: its result is the pairwise difference of its arguments.

  After the launch the program re-reads the kernel's output `[32, 32768, 128]` row-major as `[32, 65536, 64]`. The output is
  the folded difference of the folded points and the tiled centroids (`Region.final`, over `Entry.folded_points` and
  `Entry.tiled_centroids`), and unfolding a folded difference is the difference itself (`unfold_folded_diff`): the result
  holds `x (n, d) - c (k, d)` at `(k, n, d)`. The arguments end as they started: no operation of the program writes them.
-/
import proofs.«126491_j80401787781311_2_alg».proof.Proof.Gen.KernelIdeal.Frame
import proofs.«126491_j80401787781311_2_alg».proof.Proof.Layout
import proofs.«126491_j80401787781311_2_alg».proof.Proof.Entry
import proofs.«126491_j80401787781311_2_alg».proof.Proof.Region
import Idealize.ShloMosaic.Lib.StableHlo.Run
import Idealize.ShloMosaic.Lib.Pipeline.Value

noncomputable section

namespace Cert.PairDiff.Result

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The program's result after the lines that follow the launch: the kernel's output array, unfolded. -/
theorem result_eq_unfolded (c : Dev nD) :
    (Pipeline.afterTail₀ cfgs (dats m) 0 (V0 m) [hostOps1] c main_v5 : S32x65536x64.Idx → Elt F .f32)
      = shapeCast S32x65536x64 (Cert.PairDiff.diffF (V m c main_v0) (V m c main_v3)) shapeCasts_S32x32768x128_S32x65536x64 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = Cert.PairDiff.diffF (V m c main_v0) (V m c main_v3) :=
    (Pipeline.withArrays_arr spec0 launch0.win.arr_inj c _ _ 2).trans (Cert.PairDiff.Region.final m c)
  rw [e]
  rfl

/-- The program's result is the pairwise difference of its arguments as launched. -/
theorem result_eq (c : Dev nD) :
    (Pipeline.afterTail₀ cfgs (dats m) 0 (V0 m) [hostOps1] c main_v5 : S32x65536x64.Idx → Elt F .f32)
      = Cert.PairDiff.diff (m ((c : Thread nD τ).loc main_arg0)) (m ((c : Thread nD τ).loc main_arg1)) := by
  rw [result_eq_unfolded, Cert.PairDiff.Entry.folded_points, Cert.PairDiff.Entry.tiled_centroids]
  exact Cert.PairDiff.unfold_folded_diff _ _ _ _ _ _ _

/-- Every weakly fair execution of the kernel's program terminates, with the result at the pairwise difference of the
    arguments and the arguments unchanged. -/
theorem run : θ_run defs (onTc (τ := τ) (main (F := F))) ⟨m, fun _ => 0, ρ⟩ fun r => ∀ c : Dev nD,
      r.2.mem ((c.tc : Thread nD τ).loc main_v5)
        = Cert.PairDiff.diff (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.PairDiff.Result

end
-- ==== Proof.lean ====
/-
  Pairwise differences of points and centroids: the kernel's program against its reference, over the extended reals.

  For points `x : [65536, 64]` and centroids `c : [32, 64]` both programs end with the array `[32, 65536, 64]` that holds
  `x (n, d) - c (k, d)` at `(k, n, d)` (`Cert.PairDiff.diff`, Proof/Layout.lean).

  The reference subtracts after repeating each operand along the axis it lacks (Proof/Reference.lean). The kernel's
  program folds every two consecutive rows of the points into one row of 128 lanes, lays each centroid twice side by
  side, and launches a grid of 64 points, each subtracting, for all 32 centroids, 512 folded rows (Proof/Body.lean); the
  64 blocks tile the folded output `[32, 32768, 128]`, which therefore ends holding the folded difference of the two
  launched arrays (Proof/Region.lean, over Proof/Entry.lean); re-read row-major as `[32, 65536, 64]`, lane
  `(n % 2) · 64 + d` of folded row `n / 2` is feature `d` of point `n`, and the same lane of a tiled centroid is its
  feature `d`, so the result is the same array (Proof/Layout.lean `unfold_folded_diff`, Proof/Result.lean).

  The two sides apply the one subtraction to the same two operands at every index; only positions are rearranged. No law
  of arithmetic is used, so the finiteness of the inputs is never opened. The idealization rewrote nothing, so the
  kernel's idealized program is its own text read over the extended reals and `preserves` states nothing. Each program
  terminates without a fault and leaves its arguments as they were: the kernels' by their frames, the reference's by its
  run.
-/
import proofs.«126491_j80401787781311_2_alg».proof.Defs
import proofs.«126491_j80401787781311_2_alg».proof.Proof.Gen.Kernel
import proofs.«126491_j80401787781311_2_alg».proof.Proof.Gen.Kernel.Frame
import proofs.«126491_j80401787781311_2_alg».proof.Proof.Gen.KernelIdeal
import proofs.«126491_j80401787781311_2_alg».proof.Proof.Gen.KernelIdeal.Frame
import proofs.«126491_j80401787781311_2_alg».proof.Proof.Gen.ReferenceIdeal
import proofs.«126491_j80401787781311_2_alg».proof.Proof.Gen.ReferenceIdeal.Run
import proofs.«126491_j80401787781311_2_alg».proof.Proof.Gen.ReferenceIdeal.Read
import proofs.«126491_j80401787781311_2_alg».proof.Proof.Gen.Pre_finite_inputs
import proofs.«126491_j80401787781311_2_alg».proof.Proof.Reference
import proofs.«126491_j80401787781311_2_alg».proof.Proof.Result

noncomputable section

namespace Cert.Proof

open Idealize.ShloMosaic Idealize.ShloMosaic.TcCoe Idealize.SL.Sem

/-- The kernel's program as printed terminates and keeps its arguments. -/
theorem frame_kernel : Cert.frame_Kernel := fun m ρ _ => Cert.Kernel.Gen.frame m ρ

/-- So does its idealized reading. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end with the pairwise difference of those arguments. -/
theorem algebraic : Cert.algebraic_KernelIdeal_ReferenceIdeal := by
  intro m ρ m' ρ' _ hagree
  refine ⟨_, Cert.PairDiff.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.PairDiff.Reference.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
